-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000x120 : Shape := ⟨2, ![8000, 120]⟩
abbrev S120x8000 : Shape := ⟨2, ![120, 8000]⟩
abbrev S8000 : Shape := ⟨1, ![8000]⟩
abbrev S_ : Shape := ⟨0, ![]⟩

class Facts : Prop where
  bcast_S_S8000x120 : S_.BroadcastsInDim S8000x120 (![] : Fin 0 → Fin S8000x120.rank)
  reducesTo_S8000x120_S_d0_1 : S8000x120.ReducesTo [0, 1] S_
  h_S_ : 0 < S_.numel
  bcast_S_S120x8000 : S_.BroadcastsInDim S120x8000 (![] : Fin 0 → Fin S120x8000.rank)
  reducesTo_S120x8000_S_d0_1 : S120x8000.ReducesTo [0, 1] S_
  bcast_S_S8000 : S_.BroadcastsInDim S8000 (![] : Fin 0 → Fin S8000.rank)
  reducesTo_S8000_S_d0 : S8000.ReducesTo [0] S_

variable [Facts]

def fn {F : FTy → Type} [FloatOps F] (main_arg0 : FVec F S8000x120 .f32) (main_arg1 : FVec F S120x8000 .f32) (main_arg2 : FVec F S8000 .f32) : IVec S_ 1 :=
  let main_v0 : FVec F S8000x120 .f32 := Host.absf main_arg0
  let main_cst : FVec F S_ .f32 := constant S_ .f32 0x7F800000#32
  let main_v1 : FVec F S8000x120 .f32 := broadcastInDim S8000x120 ![] bcast_S_S8000x120 main_cst
  let main_v2 : IVec S8000x120 1 := cmpf .olt main_v0 main_v1
  let main_c : IVec S_ 1 := constantI S_ 1 1#1
  let main_v3 : IVec S_ 1 := (fun x v => Host.reduce IntOp.andi x v reducesTo_S8000x120_S_d0_1 h_S_) main_v2 main_c
  let main_v4 : FVec F S120x8000 .f32 := Host.absf main_arg1
  let main_cst_0 : FVec F S_ .f32 := constant S_ .f32 0x7F800000#32
  let main_v5 : FVec F S120x8000 .f32 := broadcastInDim S120x8000 ![] bcast_S_S120x8000 main_cst_0
  let main_v6 : IVec S120x8000 1 := cmpf .olt main_v4 main_v5
  let main_c_1 : IVec S_ 1 := constantI S_ 1 1#1
  let main_v7 : IVec S_ 1 := (fun x v => Host.reduce IntOp.andi x v reducesTo_S120x8000_S_d0_1 h_S_) main_v6 main_c_1
  let main_v8 : IVec S_ 1 := andi main_v3 main_v7
  let main_v9 : FVec F S8000 .f32 := Host.absf main_arg2
  let main_cst_2 : FVec F S_ .f32 := constant S_ .f32 0x7F800000#32
  let main_v10 : FVec F S8000 .f32 := broadcastInDim S8000 ![] bcast_S_S8000 main_cst_2
  let main_v11 : IVec S8000 1 := cmpf .olt main_v9 main_v10
  let main_c_3 : IVec S_ 1 := constantI S_ 1 1#1
  let main_v12 : IVec S_ 1 := (fun x v => Host.reduce IntOp.andi x v reducesTo_S8000_S_d0 h_S_) main_v11 main_c_3
  let main_v13 : IVec S_ 1 := andi main_v8 main_v12
  main_v13
-- ==== Kernel.lean ====
abbrev S8000x120 : Shape := ⟨2, ![8000, 120]⟩
abbrev S120x8000 : Shape := ⟨2, ![120, 8000]⟩
abbrev S8000 : Shape := ⟨1, ![8000]⟩
abbrev S_ : Shape := ⟨0, ![]⟩
abbrev S8064x128 : Shape := ⟨2, ![8064, 128]⟩
abbrev S128x8000 : Shape := ⟨2, ![128, 8000]⟩
abbrev S1x8000 : Shape := ⟨2, ![1, 8000]⟩
abbrev S8064x8000 : Shape := ⟨2, ![8064, 8000]⟩
abbrev S192x128 : Shape := ⟨2, ![192, 128]⟩
abbrev S192x8000 : Shape := ⟨2, ![192, 8000]⟩

abbrev nBuf : Space → Nat
  | .hbm => 11
  | .vmem => 6
  | .smem => 0
  | _ => 0

abbrev bufTy : (tb : Table) → Fin (tcTables nBuf tb) → BufTy
  | .hbm, ⟨0, _⟩ => ⟨S8000x120, .f32⟩
  | .hbm, ⟨1, _⟩ => ⟨S120x8000, .f32⟩
  | .hbm, ⟨2, _⟩ => ⟨S8000, .f32⟩
  | .hbm, ⟨3, _⟩ => ⟨S_, .i32⟩
  | .hbm, ⟨4, _⟩ => ⟨S_, .f32⟩
  | .hbm, ⟨5, _⟩ => ⟨S8064x128, .f32⟩
  | .hbm, ⟨6, _⟩ => ⟨S_, .i32⟩
  | .hbm, ⟨7, _⟩ => ⟨S_, .f32⟩
  | .hbm, ⟨8, _⟩ => ⟨S128x8000, .f32⟩
  | .hbm, ⟨9, _⟩ => ⟨S1x8000, .f32⟩
  | .hbm, ⟨10, _⟩ => ⟨S8064x8000, .f32⟩
  | .local _ .vmem, ⟨0, _⟩ => ⟨S192x128, .f32⟩
  | .local _ .vmem, ⟨1, _⟩ => ⟨S192x128, .f32⟩
  | .local _ .vmem, ⟨2, _⟩ => ⟨S128x8000, .f32⟩
  | .local _ .vmem, ⟨3, _⟩ => ⟨S1x8000, .f32⟩
  | .local _ .vmem, ⟨4, _⟩ => ⟨S192x8000, .f32⟩
  | .local _ .vmem, ⟨5, _⟩ => ⟨S192x8000, .f32⟩
  | _, _ => ⟨S8000x120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![42], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S192x8000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S8000x120_S8064x128_0640_080 : S8000x120.Pads (![0, 0] : Fin 2 → Nat) ![64, 8] ![0, 0] S8064x128
  h_S_ : 0 < S_.numel
  pads_S120x8000_S128x8000_080_000 : S120x8000.Pads (![0, 0] : Fin 2 → Nat) ![8, 0] ![0, 0] S128x8000
  shapeCasts_S8000_S1x8000 : S8000.ShapeCasts S1x8000
  inb_S192x128_S192x128_0_0 : ∀ a, (![0, 0] : Fin 2 → Nat) a + S192x128.size a ≤ S192x128.size a
  h_S192x128 : 0 < S192x128.numel
  shapeCasts_S192x128_S192x128 : S192x128.ShapeCasts S192x128
  bitsLt_bf16_f32 : FTy.bits .bf16 < FTy.bits .f32
  inb_S128x8000_S128x8000_0_0 : ∀ a, (![0, 0] : Fin 2 → Nat) a + S128x8000.size a ≤ S128x8000.size a
  h_S128x8000 : 0 < S128x8000.numel
  shapeCasts_S128x8000_S128x8000 : S128x8000.ShapeCasts S128x8000
  inb_S1x8000_S1x8000_0_0 : ∀ a, (![0, 0] : Fin 2 → Nat) a + S1x8000.size a ≤ S1x8000.size a
  h_S1x8000 : 0 < S1x8000.numel
  shapeCasts_S1x8000_S1x8000 : S1x8000.ShapeCasts S1x8000
  broadcasts_S1x8000_S192x8000 : S1x8000.Broadcasts S192x8000
  inb_S192x8000_S192x8000_0_0 : ∀ a, (![0, 0] : Fin 2 → Nat) a + S192x8000.size a ≤ S192x8000.size a
  h_S192x8000 : 0 < S192x8000.numel
  dot_S192x128_S128x8000_S192x8000_1_0_0_1_n_n_wf : DotDims.WF S192x128 S128x8000 S192x8000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S192x128.size a ≤ S8064x128.size a
  hwx0_0 : ∀ i : grid0.Coords, EltTy.bits .f32 = 32 ∨ (Rect.block (s := S8064x128) S192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8000.size a ≤ S128x8000.size a
  hwx0_1 : ∀ i : grid0.Coords, EltTy.bits .f32 = 32 ∨ (Rect.block (s := S128x8000) S128x8000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8000.size a ≤ S1x8000.size a
  hwx0_2 : ∀ i : grid0.Coords, EltTy.bits .f32 = 32 ∨ (Rect.block (s := S1x8000) S1x8000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S192x8000.size a ≤ S8064x8000.size a
  hwx0_3 : ∀ i : grid0.Coords, EltTy.bits .f32 = 32 ∨ (Rect.block (s := S8064x8000) S192x8000.size (cc0_transform_3 i) (hinb0_3 i)).WholeWords (EltTy.packing .f32)

variable [Facts₀]

def dot_S192x128_S128x8000_S192x8000_1_0_0_1_n_n : DotDims S192x128 S128x8000 S192x8000 where
  lhsContracting := [1]
  rhsContracting := [0]
  lhsNonContracting := [0]
  rhsNonContracting := [1]
  lhsBatch := []
  rhsBatch := []
  wf := dot_S192x128_S128x8000_S192x8000_1_0_0_1_n_n_wf

abbrev win0_0 : Pipeline.Window sig grid0 :=
  Pipeline.Window.ofSpec (Memref.whole main_v0) S192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x8000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S192x8000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8000x120 : Shape := ⟨2, ![8000, 120]⟩
abbrev S120x8000 : Shape := ⟨2, ![120, 8000]⟩
abbrev S8000 : Shape := ⟨1, ![8000]⟩
abbrev S_ : Shape := ⟨0, ![]⟩
abbrev S8064x128 : Shape := ⟨2, ![8064, 128]⟩
abbrev S128x8064 : Shape := ⟨2, ![128, 8064]⟩
abbrev S8064x8064 : Shape := ⟨2, ![8064, 8064]⟩
abbrev S1 : Shape := ⟨1, ![1]⟩
abbrev S8064x8000 : Shape := ⟨2, ![8064, 8000]⟩

abbrev nBuf : Space → Nat
  | .hbm => 15
  | .vmem => 0
  | .smem => 0
  | _ => 0

abbrev bufTy : (tb : Table) → Fin (tcTables nBuf tb) → BufTy
  | .hbm, ⟨0, _⟩ => ⟨S8000x120, .f32⟩
  | .hbm, ⟨1, _⟩ => ⟨S120x8000, .f32⟩
  | .hbm, ⟨2, _⟩ => ⟨S8000, .f32⟩
  | .hbm, ⟨3, _⟩ => ⟨S_, .i32⟩
  | .hbm, ⟨4, _⟩ => ⟨S_, .f32⟩
  | .hbm, ⟨5, _⟩ => ⟨S8064x128, .f32⟩
  | .hbm, ⟨6, _⟩ => ⟨S_, .i32⟩
  | .hbm, ⟨7, _⟩ => ⟨S_, .f32⟩
  | .hbm, ⟨8, _⟩ => ⟨S128x8064, .f32⟩
  | .hbm, ⟨9, _⟩ => ⟨S8064x8064, .f32⟩
  | .hbm, ⟨10, _⟩ => ⟨S_, .i32⟩
  | .hbm, ⟨11, _⟩ => ⟨S1, .i32⟩
  | .hbm, ⟨12, _⟩ => ⟨S8064x8000, .f32⟩
  | .hbm, ⟨13, _⟩ => ⟨S8064x8064, .f32⟩
  | .hbm, ⟨14, _⟩ => ⟨S8064x8000, .f32⟩
  | _, _ => ⟨S8000x120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]

class Facts₀ : Prop where
  pads_S8000x120_S8064x128_0640_080 : S8000x120.Pads (![0, 0] : Fin 2 → Nat) ![64, 8] ![0, 0] S8064x128
  h_S_ : 0 < S_.numel
  pads_S120x8000_S128x8064_080_0640 : S120x8000.Pads (![0, 0] : Fin 2 → Nat) ![8, 64] ![0, 0] S128x8064
  bcast_S_S1 : S_.BroadcastsInDim S1 (![] : Fin 0 → Fin S1.rank)
  bcast_S8000_S8064x8000_1 : S8000.BroadcastsInDim S8064x8000 (![1] : Fin 1 → Fin S8064x8000.rank)
  slices_S8064x8064_S8064x8000_0_0 : S8064x8064.Slices ![0, 0] S8064x8000
  dot_S8064x128_S128x8064_S8064x8064_1_0_0_1_n_n_wf : DotDims.WF S8064x128 S128x8064 S8064x8064 [1] [0] [0] [1] [] []
  scatter_S8064x8064_S1_S8064x8000_01_n_1_0_wf : ScatterDims.WF S8064x8064 S1 S8064x8000 [0, 1] [] [1] 0

variable [Facts₀]

def dot_S8064x128_S128x8064_S8064x8064_1_0_0_1_n_n : DotDims S8064x128 S128x8064 S8064x8064 where
  lhsContracting := [1]
  rhsContracting := [0]
  lhsNonContracting := [0]
  rhsNonContracting := [1]
  lhsBatch := []
  rhsBatch := []
  wf := dot_S8064x128_S128x8064_S8064x8064_1_0_0_1_n_n_wf
def scatter_S8064x8064_S1_S8064x8000_01_n_1_0 : ScatterDims S8064x8064 S1 S8064x8000 where
  updateWindowDims := [0, 1]
  insertedWindowDims := []
  scatterDimsToOperandDims := [1]
  indexVectorDim := 0
  wf := scatter_S8064x8064_S1_S8064x8000_01_n_1_0_wf

class Facts : Prop extends Facts₀ where

variable [Facts]
-- ==== Proof.KernelPayload.lean ====
/-
  The kernel body's stored value, index by index.

  At a grid point the body loads a [192, 128] block of the padded first operand, the whole padded second operand
  [128, 8000] and the bias as a [1, 8000] row, multiplies the two (into a zero accumulator; the changes of float
  format before the product are the identity on the extended reals), adds the bias row broadcast down the 192 rows,
  and stores the [192, 8000] result. So its entry (p, q) is

      (∑ k < 128, lhs (p, k) · rhs (k, q)) + row (0, q).

  The product: at the ideal values a matrix product into the zero accumulator is the sum over the contraction index of
  the operands' products; the contraction has one axis of 128 positions, and the operands' indices at output (p, q)
  and position k are (p, k) and (k, q).
-/
import proofs.«111424_j60842506715778_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.BodyValue

open Cert.KernelIdeal Cert.KernelIdeal.Gen Idealize.ShloMosaic Idealize.ShloMosaic.ValueIdx

/-! ## The product's operand indices -/

theorem lhs_row (i : S192x8000.Idx) (q : dot_S192x128_S128x8000_S192x8000_1_0_0_1_n_n.contr.Idx) :
    (dot_S192x128_S128x8000_S192x8000_1_0_0_1_n_n.lhsIdx i q 0).val = (i 0).val := by
  unfold DotDims.lhsIdx
  rw [dif_neg (show ¬(0 : Fin S192x128.rank) ∈ dot_S192x128_S128x8000_S192x8000_1_0_0_1_n_n.lhsBatch by decide),
    dif_pos (show (0 : Fin S192x128.rank) ∈ dot_S192x128_S128x8000_S192x8000_1_0_0_1_n_n.lhsNonContracting by decide)]
  rfl

theorem lhs_col (i : S192x8000.Idx) (q : dot_S192x128_S128x8000_S192x8000_1_0_0_1_n_n.contr.Idx) :
    (dot_S192x128_S128x8000_S192x8000_1_0_0_1_n_n.lhsIdx i q 1).val = (q ⟨0, by decide⟩).val :=
  dot_S192x128_S128x8000_S192x8000_1_0_0_1_n_n.lhsIdx_val_of_single rfl i q

theorem rhs_row (i : S192x8000.Idx) (q : dot_S192x128_S128x8000_S192x8000_1_0_0_1_n_n.contr.Idx) :
    (dot_S192x128_S128x8000_S192x8000_1_0_0_1_n_n.rhsIdx i q 0).val = (q ⟨0, by decide⟩).val :=
  dot_S192x128_S128x8000_S192x8000_1_0_0_1_n_n.rhsIdx_val_of_single rfl i q

theorem rhs_col (i : S192x8000.Idx) (q : dot_S192x128_S128x8000_S192x8000_1_0_0_1_n_n.contr.Idx) :
    (dot_S192x128_S128x8000_S192x8000_1_0_0_1_n_n.rhsIdx i q 1).val = (i 1).val := by
  unfold DotDims.rhsIdx
  rw [dif_neg (show ¬(1 : Fin S128x8000.rank) ∈ dot_S192x128_S128x8000_S192x8000_1_0_0_1_n_n.rhsBatch by decide),
    dif_pos (show (1 : Fin S128x8000.rank) ∈ dot_S192x128_S128x8000_S192x8000_1_0_0_1_n_n.rhsNonContracting by decide)]
  rfl

/-! ## The product and the bias row at an index -/

/-- The body's matrix product into the zero accumulator, at (p, q): the sum over the 128 contracted positions. -/
theorem product_apply (l : FVec Ideal S192x128 .bf16) (r : FVec Ideal S128x8000 .bf16) (p : Fin 192) (q : Fin 8000) :
    matmul (F := Ideal) dot_S192x128_S128x8000_S192x8000_1_0_0_1_n_n none l r (constant S192x8000 .f32 0x00000000#32) (ix2 p q)
      = ∑ k : Fin 128, l (ix2 p k) * r (ix2 k q) := by
  simp only [matmul]
  rw [Ideal.matmul_constant_zero_apply,
    ← Equiv.sum_comp (contrEquiv1 dot_S192x128_S128x8000_S192x8000_1_0_0_1_n_n 128 rfl rfl).symm]
  refine Finset.sum_congr rfl fun k _ => ?_
  have hk := contrEquiv1_symm_val dot_S192x128_S128x8000_S192x8000_1_0_0_1_n_n 128 rfl rfl k
  have el : dot_S192x128_S128x8000_S192x8000_1_0_0_1_n_n.lhsIdx (ix2 p q)
      ((contrEquiv1 dot_S192x128_S128x8000_S192x8000_1_0_0_1_n_n 128 rfl rfl).symm k) = ix2 p k :=
    funext fun a => Fin.ext (by
      match a with
      | ⟨0, _⟩ => exact lhs_row _ _
      | ⟨1, _⟩ => exact (lhs_col _ _).trans hk)
  have er : dot_S192x128_S128x8000_S192x8000_1_0_0_1_n_n.rhsIdx (ix2 p q)
      ((contrEquiv1 dot_S192x128_S128x8000_S192x8000_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The bias row broadcast down the rows, at (p, q): the row's entry in column q. -/
theorem bias_rows_apply (v : FVec Ideal S1x8000 .f32) (p : Fin 192) (q : Fin 8000) :
    broadcastTo S192x8000 v broadcasts_S1x8000_S192x8000 (ix2 p q) = v (ix2 (0 : Fin 1) q) :=
  broadcastTo_apply v broadcasts_S1x8000_S192x8000 (ix2 p q) (ix2 (0 : Fin 1) q) fun a => match a with
    | ⟨0, _⟩ => by show (0 : Nat) = if (1 : Nat) = 1 then 0 else _; rw [if_pos rfl]
    | ⟨1, _⟩ => by show q.val = if (8000 : Nat) = 1 then 0 else q.val; rw [if_neg (by decide)]

/-! ## The payload -/

/-- The stored value at (p, q): the product's entry plus the bias of column q. -/
theorem payload_apply (v0 : Vec Ideal S192x128 .f32) (v3 : Vec Ideal S128x8000 .f32) (v7 : Vec Ideal S1x8000 .f32)
    (p : Fin 192) (q : Fin 8000) :
    k0_pay1 (F := Ideal) v0 v3 v7 (ix2 p q) = (∑ k : Fin 128, v0 (ix2 p k) * v3 (ix2 k q)) + v7 (ix2 (0 : Fin 1) q) := by
  unfold k0_pay1
  rw [addf_apply, product_apply, bias_rows_apply, shapeCast_self, shapeCast_self, shapeCast_self, shapeCast_self]
  rfl

end Cert.KernelIdeal.BodyValue

end
-- ==== Proof.PaddedProductSpec.lean ====
/-
  The function both programs compute, and the one fact about padding that joins them.

  Inputs: `a` of shape [8000, 120], `b` of shape [120, 8000], `bias` of shape [8000], over the extended reals.
  `a` is padded with the value `z` (the integer zero converted to a float) to [8064, 128] and `b` to [128, 8000];
  the result, of shape [8064, 8000], is at (r, j)

      (∑ k < 128, paddedA a (r, k) · paddedB b (k, j)) + bias j.

  The sum keeps all 128 terms, the padded ones included: both programs form exactly these products, so nothing
  has to be known about `z` times an entry, and no entry has to be finite.

  One program pads `b` further, to 8064 columns, and only ever reads the first 8000 of them: a column below 8000 of
  the wider padding is the same column of the narrower one (`paddedWide_apply`), row by row — inside the operand
  both read `b`, below row 120 both read `z`.
-/
import Idealize.ShloMosaic.PureOps.Ideal
import Idealize.ShloMosaic.Lib.ValueIdx
import Idealize.ShloMosaic.Lib.KernelVsHost

noncomputable section

namespace Cert.PaddedProduct

open Idealize.ShloMosaic Idealize.ShloMosaic.ValueIdx

abbrev ShA : Shape := ⟨2, ![8000, 120]⟩
abbrev ShB : Shape := ⟨2, ![120, 8000]⟩
abbrev ShBias : Shape := ⟨1, ![8000]⟩
abbrev ShScalar : Shape := ⟨0, ![]⟩
abbrev ShAPad : Shape := ⟨2, ![8064, 128]⟩
abbrev ShBPad : Shape := ⟨2, ![128, 8000]⟩
abbrev ShBWide : Shape := ⟨2, ![128, 8064]⟩
abbrev ShOut : Shape := ⟨2, ![8064, 8000]⟩

/-- The padding value `z`: the 32-bit integer zero converted to a float. -/
def padValue : FVec Ideal ShScalar .f32 := sitofp (F := Ideal) .f32 (constantI ShScalar 32 0#32)

/-- `a` padded by 64 rows and 8 columns of `z` at the high ends. -/
def paddedA (a : FVec Ideal ShA .f32) : FVec Ideal ShAPad .f32 :=
  pad (s := ShA) ShAPad ![0, 0] ![64, 8] ![0, 0] a padValue

/-- `b` padded by 8 rows of `z` at the high end. -/
def paddedB (b : FVec Ideal ShB .f32) : FVec Ideal ShBPad .f32 :=
  pad (s := ShB) ShBPad ![0, 0] ![8, 0] ![0, 0] b padValue

/-- The result array: the product of the padded operands plus the bias along the columns. -/
def result (a : FVec Ideal ShA .f32) (b : FVec Ideal ShB .f32) (bias : FVec Ideal ShBias .f32) : FVec Ideal ShOut .f32 :=
  fun i => (∑ k : Fin 128, paddedA a (ix2 (i 0) k) * paddedB b (ix2 k (i 1))) + bias (ix1 (i 1))

/-- `b` padded by 8 rows AND 64 columns, read in a column below 8000, is `b` padded by the 8 rows only. -/
theorem paddedWide_apply (b : FVec Ideal ShB .f32) (h : ShB.Pads ![0, 0] ![8, 64] ![0, 0] ShBWide) (hu : 0 < ShScalar.numel)
    (k : Fin 128) (j' : Fin 8064) (j : Fin 8000) (hj : j'.val = j.val) :
    pad (s := ShB) ShBWide ![0, 0] ![8, 64] ![0, 0] b padValue h hu (ix2 k j') = paddedB b (ix2 k j) := by
  unfold paddedB
  by_cases hk : k.val < 120
  · rw [pad_apply_of_inside _ _ _ b padValue h hu (ix2 k j') (ix2 ⟨k.val, hk⟩ j) (fun a => match a with
        | ⟨0, _⟩ => by show k.val = 0 + k.val * (0 + 1); omega
        | ⟨1, _⟩ => by show j'.val = 0 + j.val * (0 + 1); omega),
      pad_apply_of_inside _ _ _ b padValue _ _ (ix2 k j) (ix2 ⟨k.val, hk⟩ j) (fun a => match a with
        | ⟨0, _⟩ => by show k.val = 0 + k.val * (0 + 1); omega
        | ⟨1, _⟩ => by show j.val = 0 + j.val * (0 + 1); omega)]
  · rw [pad_apply_of_not_inside _ _ _ b padValue h hu (ix2 k j') (0 : Fin 2) (by
        show ¬(0 ≤ k.val ∧ (k.val - 0) % (0 + 1) = 0 ∧ (k.val - 0) / (0 + 1) < 120); omega),
      pad_apply_of_not_inside _ _ _ b padValue _ _ (ix2 k j) (0 : Fin 2) (by
        show ¬(0 ≤ k.val ∧ (k.val - 0) % (0 + 1) = 0 ∧ (k.val - 0) / (0 + 1) < 120); omega)]

end Cert.PaddedProduct

end
-- ==== Proof.KernelEntryArrays.lean ====
/-
  What the kernel's region finds in the three arrays it reads.

  Before the region the program pads the first argument to [8064, 128] and the second to [128, 8000] with the
  integer zero converted to a float, and reshapes the bias [8000] to one row [1, 8000]. The three arrays the region's
  input windows read are therefore the padded operands of the specification and the bias laid out as a row, whose
  entry (0, q) is the bias's entry q (a reshape keeps the row-major position).
-/
import proofs.«111424_j60842506715778_2_alg».proof.Proof.Gen.KernelIdeal.Frame
import proofs.«111424_j60842506715778_2_alg».proof.Proof.PaddedProductSpec
import Idealize.ShloMosaic.Lib.StableHlo.Run
import Idealize.ShloMosaic.Lib.Pipeline.Value
import Idealize.ShloMosaic.Lib.ValueIdx

noncomputable section

namespace Cert.KernelIdeal.EntryArrays

open Cert.KernelIdeal Cert.KernelIdeal.Gen Idealize.ShloMosaic Idealize.ShloMosaic.TcCoe Idealize.SL.Sem
open Idealize.ShloMosaic.StableHlo Idealize.ShloMosaic.ValueIdx
open Cert.PaddedProduct (paddedA paddedB)

variable (m : (ℓ : Loc nD τ sig) → Buf (Elt Ideal) ℓ)

/-- The first input window's array: the first argument, padded. -/
theorem lhs_array (c : Dev nD) :
    (V m c main_v0 : S8064x128.Idx → EReal) = paddedA (m ((c : Thread nD τ).loc main_arg0)) := by
  dsimp only [Gen.V]
  simp only [hostOps0, hostOps0_1, hostOps0_2, hostOps0_3, hostOps0_4, List.flatten_cons, List.flatten_nil,
    List.append_nil, List.cons_append, List.nil_append]
  after_results
  rfl

/-- The second input window's array: the second argument, padded. -/
theorem rhs_array (c : Dev nD) :
    (V m c main_v1 : S128x8000.Idx → EReal) = paddedB (m ((c : Thread nD τ).loc main_arg1)) := by
  dsimp only [Gen.V]
  simp only [hostOps0, hostOps0_1, hostOps0_2, hostOps0_3, hostOps0_4, List.flatten_cons, List.flatten_nil,
    List.append_nil, List.cons_append, List.nil_append]
  after_results
  rfl

/-- The third input window's array: the bias as one row. -/
theorem bias_array (c : Dev nD) :
    (V m c main_v2 : S1x8000.Idx → EReal)
      = shapeCast S1x8000 (m ((c : Thread nD τ).loc main_arg2) : S8000.Idx → EReal) shapeCasts_S8000_S1x8000 := by
  dsimp only [Gen.V]
  simp only [hostOps0, hostOps0_1, hostOps0_2, hostOps0_3, hostOps0_4, List.flatten_cons, List.flatten_nil,
    List.append_nil, List.cons_append, List.nil_append]
  after_results
  rfl

/-- Its entry (0, q) is the bias's entry q. -/
theorem bias_array_apply (c : Dev nD) (q : Fin 8000) :
    (V m c main_v2 : S1x8000.Idx → EReal) (ix2 (0 : Fin 1) q) = (m ((c : Thread nD τ).loc main_arg2) : S8000.Idx → EReal) (ix1 q) := by
  rw [bias_array]
  refine shapeCast_apply _ shapeCasts_S8000_S1x8000 (ix2 (0 : Fin 1) q) (ix1 q) ?_
  rw [Shape.rowMajor_val_one, Shape.rowMajor_val_two]
  show q.val = 0 * 8000 + q.val
  omega

end Cert.KernelIdeal.EntryArrays

end
-- ==== Proof.KernelResult.lean ====
/-
  The kernel's result array is the padded product plus the bias.

  The grid has 42 points. At point t the first operand's window is block (t, 0) of the padded [8064, 128] array — rows
  192·t … 192·t + 191, all 128 columns —, the second operand's and the bias row's windows are their whole arrays, and
  the output's window is block (t, 0) of the [8064, 8000] result: rows 192·t … 192·t + 191, all 8000 columns.
  * What point t writes back: entry (p, q) of the stored block is the body's value there — the sum over k of the first
    block's (p, k) times the second array's (k, q), plus the bias row's (0, q). The first block's (p, k) is the padded
    first operand at (192·t + p, k); so the stored block is block t of the specification's result.
  * The 42 blocks cover the result: row r lies in the block of point r / 192.
  Hence the whole array after the run is the specification's result of the three arguments.
-/
import proofs.«111424_j60842506715778_2_alg».proof.Proof.Gen.KernelIdeal.Value
import proofs.«111424_j60842506715778_2_alg».proof.Proof.KernelPayload
import proofs.«111424_j60842506715778_2_alg».proof.Proof.KernelEntryArrays
import proofs.«111424_j60842506715778_2_alg».proof.Proof.PaddedProductSpec

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.PaddedProduct (paddedA paddedB result)

variable (m : (ℓ : Loc nD τ sig) → Buf (Elt Ideal) ℓ) (ρ : Dev nD → PrngReg)

theorem zero_offsets : (![0, 0] : Fin 2 → Nat) = fun _ => 0 := funext fun a => by fin_cases a <;> rfl

/-- The windows' block indices at each of the 42 points: the first operand's and the output's blocks move down the
    rows with the point, the other two windows stay at block (0, 0). -/
theorem block_indices : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What point `t` writes back is block `t` of the specification's result of the three arguments. -/
theorem flushed_block (c : Dev nD) (t : Fin cfg0.N) :
    (dats m 0 c).flushed 3 t = ((cfg0.win 3).blk t).view.read (Elt Ideal)
      (result (m ((c : Thread nD τ).loc main_arg0)) (m ((c : Thread nD τ).loc main_arg1)) (m ((c : Thread nD τ).loc main_arg2))) := by
  rw [Value.flushed3]
  unfold out0_3
  rw [View.canon_unit_zero zero_offsets]
  simp only [View.ld_unit_zero (S := S192x128) zero_offsets, View.ld_unit_zero (S := S128x8000) zero_offsets,
    View.ld_unit_zero (S := S1x8000) zero_offsets]
  obtain ⟨e0, e1, e2, e3, e4, e5, e6, e7⟩ := block_indices t
  funext j
  show k0_pay1 (iblk m c 0 t) (iblk m c 1 t) (iblk m c 2 t) j
    = result (m ((c : Thread nD τ).loc main_arg0)) (m ((c : Thread nD τ).loc main_arg1)) (m ((c : Thread nD τ).loc main_arg2))
        (((cfg0.win 3).blk t).view.emb j)
  obtain ⟨p, q, rfl⟩ : ∃ (p : Fin 192) (q : Fin 8000), (j : S192x8000.Idx) = ix2 p q :=
    ⟨j 0, j 1, eq_ix2 (n0 := 192) (n1 := 8000) j⟩
  refine (BodyValue.payload_apply (iblk m c 0 t) (iblk m c 1 t) (iblk m c 2 t) p q).trans ?_
  have hp : p.val < 192 := p.isLt
  have hq : q.val < 8000 := q.isLt
  -- the first block's entry (p, k) is the padded first operand at the output entry's row and column k
  have hA : ∀ k : Fin 128, iblk m c 0 t (ix2 p k)
      = paddedA (m ((c : Thread nD τ).loc main_arg0)) (ix2 ((((cfg0.win 3).blk t).view.emb (ix2 p q)) 0) k) := fun k => by
    show V m c main_v0 (((cfg0.win 0).blk t).view.emb (ix2 p k)) = _
    refine (congrFun (EntryArrays.lhs_array m c) _).trans (congrArg (paddedA _) (funext fun a => Fin.ext ?_))
    have hk : k.val < 128 := k.isLt
    match a with
    | ⟨0, _⟩ => show win0_0.index t (0 : Fin 2) * 192 + 1 * p.val = win0_3.index t (0 : Fin 2) * 192 + 1 * p.val; omega
    | ⟨1, _⟩ => show win0_0.index t (1 : Fin 2) * 128 + 1 * k.val = k.val; omega
  -- the second array's entry (k, q) is the padded second operand at row k and the output entry's column
  have hB : ∀ k : Fin 128, iblk m c 1 t (ix2 k q)
      = paddedB (m ((c : Thread nD τ).loc main_arg1)) (ix2 k ((((cfg0.win 3).blk t).view.emb (ix2 p q)) 1)) := fun k => by
    show V m c main_v1 (((cfg0.win 1).blk t).view.emb (ix2 k q)) = _
    refine (congrFun (EntryArrays.rhs_array m c) _).trans (congrArg (paddedB _) (funext fun a => Fin.ext ?_))
    have hk : k.val < 128 := k.isLt
    match a with
    | ⟨0, _⟩ => show win0_1.index t (0 : Fin 2) * 128 + 1 * k.val = k.val; omega
    | ⟨1, _⟩ => show win0_1.index t (1 : Fin 2) * 8000 + 1 * q.val = win0_3.index t (1 : Fin 2) * 8000 + 1 * q.val; omega
  -- the bias row's entry (0, q) is the bias at the output entry's column
  have hC : iblk m c 2 t (ix2 (0 : Fin 1) q)
      = (m ((c : Thread nD τ).loc main_arg2) : S8000.Idx → EReal) (ix1 ((((cfg0.win 3).blk t).view.emb (ix2 p q)) 1)) := by
    show V m c main_v2 (((cfg0.win 2).blk t).view.emb (ix2 (0 : Fin 1) q)) = _
    have e : ((cfg0.win 2).blk t).view.emb (ix2 (0 : Fin 1) q) = ix2 (0 : Fin 1) q := funext fun a => Fin.ext (by
      match a with
      | ⟨0, _⟩ => show win0_2.index t (0 : Fin 2) * 1 + 1 * 0 = 0; omega
      | ⟨1, _⟩ => show win0_2.index t (1 : Fin 2) * 8000 + 1 * q.val = q.val; omega)
    refine (congrArg (V m c main_v2) e).trans ((EntryArrays.bias_array_apply m c q).trans
      (congrArg _ (funext fun a => Fin.ext ?_)))
    match a with
    | ⟨0, _⟩ => show q.val = win0_3.index t (1 : Fin 2) * 8000 + 1 * q.val; omega
  unfold result
  exact congrArg₂ (· + ·) (Finset.sum_congr rfl fun k _ => congrArg₂ (· * ·) (hA k) (hB k)) hC

/-- An index of the result array is in point `t`'s block iff each coordinate is in the block's range on its axis. -/
theorem mem_block (t : Fin cfg0.N) (i : S8064x8000.Idx) :
    i ∈ ((cfg0.win 3).blk t).view.set ↔ ∀ a : Fin 2, win0_3.index t a * S192x8000.size a ≤ (i a).val
      ∧ (i a).val < win0_3.index t a * S192x8000.size a + S192x8000.size a := by
  show i ∈ ((View.whole main_v3).slice (win0_3.rect t)).set ↔ _
  rw [View.set_slice_whole, Rect.mem_set_unit]
  exact Iff.rfl

/-- Every index of the result array is in some point's block: row `r` in that of point `r / 192`. -/
theorem covered (i : S8064x8000.Idx) :
    ∃ t : Fin cfg0.N, (cfg0.win 3).flush t = true ∧ i ∈ ((cfg0.win 3).blk t).view.set := by
  have hi0 : (i 0).val < 8064 := (i 0).isLt
  have hi1 : (i 1).val < 8000 := (i 1).isLt
  have hN : grid0.N = 42 := N_0
  have ht : (i 0).val / 192 < grid0.N := by omega
  obtain ⟨-, -, -, -, -, -, e6, e7⟩ := block_indices ⟨(i 0).val / 192, ht⟩
  have e6' : win0_3.index ⟨(i 0).val / 192, ht⟩ (0 : Fin 2) = (i 0).val / 192 := e6
  refine ⟨⟨(i 0).val / 192, ht⟩, flush0_3 _, ?_⟩
  rw [mem_block]
  intro a
  match a with
  | ⟨0, _⟩ =>
    show win0_3.index ⟨(i 0).val / 192, ht⟩ (0 : Fin 2) * 192 ≤ (i 0).val
      ∧ (i 0).val < win0_3.index ⟨(i 0).val / 192, ht⟩ (0 : Fin 2) * 192 + 192
    omega
  | ⟨1, _⟩ =>
    show win0_3.index ⟨(i 0).val / 192, ht⟩ (1 : Fin 2) * 8000 ≤ (i 1).val
      ∧ (i 1).val < win0_3.index ⟨(i 0).val / 192, ht⟩ (1 : Fin 2) * 8000 + 8000
    omega

/-- The result array after the run is the specification's result of the three arguments. -/
theorem final_array (c : Dev nD) :
    (dats m 0 c).arrAt 3 cfg0.N
      = result (m ((c : Thread nD τ).loc main_arg0)) (m ((c : Thread nD τ).loc main_arg1)) (m ((c : Thread nD τ).loc main_arg2)) :=
  (dats m 0 c).arrAt_eq_of_cover 3 _ (fun t _ => flushed_block m c t) covered

/-- The kernel's run: every weakly fair execution terminates with the result array at the specification's result of
    the arguments as launched, and the arguments unchanged. -/
theorem run : θ_run defs (onTc (τ := τ) (main (F := Ideal))) ⟨m, fun _ => 0, ρ⟩ fun r => ∀ c : Dev nD,
      r.2.mem ((c : Thread nD τ).loc main_v3)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_array m c), (h c).2⟩) (Value.run_blocks m ρ)

end Cert.KernelIdeal.ArrayValue

end
-- ==== Proof.LibScatterOneHit.lean ====
/-
  A scatter read at one index of its operand.

  The host's `scatter` is a left fold over the update indices in row-major order: each update index `j` has a
  target index in the operand (start plus window coordinate) or none (it falls outside and is dropped), and its step
  replaces the running result at the target by the combiner `f` of the value there and the update's element.
  Two facts about such a fold, over an abstract list, and then for the scatter itself:
  * an operand index that NO update targets keeps the operand's element;
  * an operand index that EXACTLY ONE update index `j₀` targets ends at `f (x i₀) (upd j₀)` — the operand's
    element combined once with that update's element, wherever `j₀` stands in the order.
  Nothing is assumed of `f` (no associativity, no commutativity): with one hit there is nothing to reorder.
-/
import Idealize.ShloMosaic.PureOps

namespace Cert.LibScatterOneHit

open Idealize.ShloMosaic

/-! ## The fold over a list -/

section Fold

variable {ι β γ : Type} (step : (β → γ) → ι → β → γ) (tgt : ι → Option β)

/-- A fold whose step changes the running function only at the step's target leaves an index that no member of the
    list targets as it was. -/
theorem foldl_apply_of_forall_miss (hmiss : ∀ (r : β → γ) (n : ι) (b : β), tgt n ≠ some b → step r n b = r b) (b : β) :
    ∀ (l : List ι) (x : β → γ), (∀ n ∈ l, tgt n ≠ some b) → l.foldl step x b = x b
  | [], _, _ => rfl
  | a :: l, x, h => by
    rw [List.foldl_cons, foldl_apply_of_forall_miss hmiss b l (step x a) fun n hn => h n (List.mem_cons_of_mem _ hn)]
    exact hmiss x a b (h a List.mem_cons_self)

/-- If exactly one member `n₀` of a list without repetition targets `b`, and a step at its target combines the
    running value there with the member's value `v n` by `f`, the fold ends at `f (x b) (v n₀)` at `b`. -/
theorem foldl_apply_of_unique_hit (f : γ → γ → γ) (v : ι → γ)
    (hmiss : ∀ (r : β → γ) (n : ι) (b : β), tgt n ≠ some b → step r n b = r b)
    (hhit : ∀ (r : β → γ) (n : ι) (b : β), tgt n = some b → step r n b = f (r b) (v n)) (b : β) (n₀ : ι) :
    ∀ (l : List ι) (x : β → γ), l.Nodup → n₀ ∈ l → tgt n₀ = some b → (∀ n ∈ l, tgt n = some b → n = n₀) →
      l.foldl step x b = f (x b) (v n₀)
  | [], _, _, hmem, _, _ => absurd hmem List.not_mem_nil
  | a :: l, x, hnd, hmem, h₀, huniq => by
    rw [List.foldl_cons]
    obtain ⟨hal, hl⟩ := List.nodup_cons.mp hnd
    by_cases ha : a = n₀
    · subst ha
      rw [foldl_apply_of_forall_miss step tgt hmiss b l (step x a) fun n hn hb =>
        hal ((huniq n (List.mem_cons_of_mem _ hn) hb) ▸ hn)]
      exact hhit x a b h₀
    · have hmem' : n₀ ∈ l := (List.mem_cons.mp hmem).resolve_left fun e => ha e.symm
      rw [foldl_apply_of_unique_hit f v hmiss hhit b n₀ l (step x a) hl hmem' h₀
        fun n hn hb => huniq n (List.mem_cons_of_mem _ hn) hb]
      rw [hmiss x a b fun hb => ha (huniq a List.mem_cons_self hb)]

end Fold

/-! ## The scatter -/

section Scatter

variable {α : Type} {s si u : Shape} {w : Nat}

/-- The scatter's step leaves every index but its target alone. -/
private theorem step_miss (d : ScatterDims s si u) (f : α → α → α) (idx : IVec si w) (upd : u.Idx → α)
    (r : s.Idx → α) (n : Fin u.numel) (b : s.Idx) (h : d.resultIdx? (u.rowMajor.symm n) idx ≠ some b) :
    (match d.resultIdx? (u.rowMajor.symm n) idx with
      | some i => fun i' => if i' = i then f (r i) (upd (u.rowMajor.symm n)) else r i'
      | none => r) b = r b := by
  generalize d.resultIdx? (u.rowMajor.symm n) idx = o at h
  cases o with
  | none => rfl
  | some i => exact if_neg fun (hb : b = i) => h (congrArg some hb.symm)

/-- The scatter's step at its target combines the value there with the update's element. -/
private theorem step_hit (d : ScatterDims s si u) (f : α → α → α) (idx : IVec si w) (upd : u.Idx → α)
    (r : s.Idx → α) (n : Fin u.numel) (b : s.Idx) (h : d.resultIdx? (u.rowMajor.symm n) idx = some b) :
    (match d.resultIdx? (u.rowMajor.symm n) idx with
      | some i => fun i' => if i' = i then f (r i) (upd (u.rowMajor.symm n)) else r i'
      | none => r) b = f (r b) (upd (u.rowMajor.symm n)) := by
  generalize d.resultIdx? (u.rowMajor.symm n) idx = o at h
  cases o with
  | none => exact absurd h (by simp)
  | some i =>
    obtain rfl : i = b := Option.some.inj h
    exact if_pos rfl

/-- A scatter read at an operand index that no update index targets is the operand there. -/
theorem scatter_apply_of_forall_miss (d : ScatterDims s si u) (f : α → α → α) (x : s.Idx → α) (idx : IVec si w)
    (upd : u.Idx → α) (i₀ : s.Idx) (h : ∀ j : u.Idx, d.resultIdx? j idx ≠ some i₀) :
    Host.scatter d f x idx upd i₀ = x i₀ := by
  unfold Host.scatter
  exact foldl_apply_of_forall_miss _ (fun n => d.resultIdx? (u.rowMajor.symm n) idx)
    (fun r n b hb => step_miss d f idx upd r n b hb) i₀ _ x fun n _ => h _

/-- A scatter read at an operand index that exactly one update index `j₀` targets is the combiner of the operand's
    element there and that update's element. -/
theorem scatter_apply_of_unique_hit (d : ScatterDims s si u) (f : α → α → α) (x : s.Idx → α) (idx : IVec si w)
    (upd : u.Idx → α) (i₀ : s.Idx) (j₀ : u.Idx) (h₀ : d.resultIdx? j₀ idx = some i₀)
    (huniq : ∀ j : u.Idx, d.resultIdx? j idx = some i₀ → j = j₀) :
    Host.scatter d f x idx upd i₀ = f (x i₀) (upd j₀) := by
  unfold Host.scatter
  refine (foldl_apply_of_unique_hit _ (fun n => d.resultIdx? (u.rowMajor.symm n) idx) f
    (fun n => upd (u.rowMajor.symm n)) (fun r n b hb => step_miss d f idx upd r n b hb)
    (fun r n b hb => step_hit d f idx upd r n b hb) i₀ (u.rowMajor j₀) _ x (List.nodup_finRange _)
    (List.mem_finRange _) ?_ ?_).trans ?_
  · show d.resultIdx? (u.rowMajor.symm (u.rowMajor j₀)) idx = some i₀
    rw [Equiv.symm_apply_apply]; exact h₀
  · intro n _ hn
    have := huniq _ hn
    exact (Equiv.symm_apply_eq _).mp this
  · show f (x i₀) (upd (u.rowMajor.symm (u.rowMajor j₀))) = _
    rw [Equiv.symm_apply_apply]

end Scatter

end Cert.LibScatterOneHit
-- ==== Proof.ReferenceIsResult.lean ====
/-
  The reference's result, index by index, is the padded product plus the bias.

  The reference pads both operands (the second one to 8064 columns), multiplies them, adds the bias — broadcast along
  the rows to [8064, 8000] — into the product by a scatter with ONE update window placed at column 0, and slices the
  first 8000 columns back out.
  * The scatter: update index (r, j) lands at operand index (r, j) — the window's start is the index vector's one
    entry, the integer zero, on the column axis and zero on the row axis — so operand index (r, j) with j < 8000 is
    the target of exactly one update index, (r, j) itself, and the scatter there is the product's entry plus the
    bias's (the general fact about a scatter read at an index with one hit).
  * The product: a sum over the 128 contracted positions of the padded operands' entries; the wider padding of the
    second operand is read in columns below 8000 only, where it is the narrower one.
-/
import proofs.«111424_j60842506715778_2_alg».proof.Proof.Gen.ReferenceIdeal.Read
import proofs.«111424_j60842506715778_2_alg».proof.Proof.LibScatterOneHit
import proofs.«111424_j60842506715778_2_alg».proof.Proof.PaddedProductSpec

noncomputable section

namespace Cert.ReferenceIdeal.RefValue

open Cert.ReferenceIdeal Cert.ReferenceIdeal.Gen Cert.ReferenceIdeal.Read Idealize.ShloMosaic Idealize.ShloMosaic.ValueIdx
open Cert.PaddedProduct (paddedA paddedB padValue result paddedWide_apply)

/-- Every update index of the bias scatter lands inside the product, at its own coordinates. -/
theorem scatter_target (j : S8064x8000.Idx) :
    scatter_S8064x8064_S1_S8064x8000_01_n_1_0.resultIdx? j (val_main_v3 (F := Ideal)) = some (idx_main_v6 j) := by
  have hs : ∀ a, scatter_S8064x8064_S1_S8064x8000_01_n_1_0.start j (val_main_v3 (F := Ideal)) a = 0 := fun a => by
    unfold ScatterDims.start
    split
    · rfl
    · rfl
  have hw : ∀ a, (scatter_S8064x8064_S1_S8064x8000_01_n_1_0.window j a : Int) = ((idx_main_v6 j a).val : Int) := fun a => by
    match a with
    | ⟨0, _⟩ => rfl
    | ⟨1, _⟩ => rfl
  unfold ScatterDims.resultIdx?
  rw [dif_pos (fun a => by
    rw [hs a, hw a]
    have hlt := (idx_main_v6 j a).isLt
    exact ⟨by omega, by omega⟩)]
  refine congrArg some (funext fun a => Fin.ext ?_)
  show (scatter_S8064x8064_S1_S8064x8000_01_n_1_0.start j (val_main_v3 (F := Ideal)) a
    + (scatter_S8064x8064_S1_S8064x8000_01_n_1_0.window j a : Int)).toNat = (idx_main_v6 j a).val
  rw [hs a, hw a, zero_add, Int.toNat_natCast]

/-- So an operand index in the first 8000 columns is the target of one update index only: the one with its own
    coordinates. -/
theorem scatter_target_unique (j j₀ : S8064x8000.Idx)
    (h : scatter_S8064x8064_S1_S8064x8000_01_n_1_0.resultIdx? j (val_main_v3 (F := Ideal)) = some (idx_main_v6 j₀)) : j = j₀ := by
  rw [scatter_target] at h
  have e : idx_main_v6 j = idx_main_v6 j₀ := Option.some.inj h
  funext a
  apply Fin.ext
  match a with
  | ⟨0, _⟩ => exact congrArg (fun i : S8064x8064.Idx => (i 0).val) e
  | ⟨1, _⟩ => exact congrArg (fun i : S8064x8064.Idx => (i 1).val) e

/-- The reference's last stage is the padded product plus the bias, as one function of the three arguments. -/
theorem reference_eq (x0 : FVec Ideal S8000x120 .f32) (x1 : FVec Ideal S120x8000 .f32) (x2 : FVec Ideal S8000 .f32) :
    val_main_v6 (F := Ideal) x0 x1 x2 = result x0 x1 x2 := by
  funext i
  rw [val_main_v6_apply]
  unfold val_main_v5
  rw [Cert.LibScatterOneHit.scatter_apply_of_unique_hit _ _ _ _ _ (idx_main_v6 i) i (scatter_target i)
    (fun j hj => scatter_target_unique j i hj)]
  rw [val_main_v2_apply, val_main_v4_apply]
  unfold val_main_v0 val_main_v1 result
  show (∑ k : Fin 128, _ * _) + _ = (∑ k : Fin 128, _ * _) + _
  have eb : idx_main_v4 i = ix1 (i 1) := funext fun a => Fin.ext (by match a with | ⟨0, _⟩ => rfl)
  rw [eb]
  refine congrArg (· + x2 (ix1 (i 1))) (Finset.sum_congr rfl fun k _ => ?_)
  have eL : lidx_main_v2 (idx_main_v6 i) k = ix2 (i 0) k :=
    funext fun a => Fin.ext (by match a with | ⟨0, _⟩ => rfl | ⟨1, _⟩ => rfl)
  have eR : ridx_main_v2 (idx_main_v6 i) k = ix2 k (idx_main_v6 i 1) :=
    funext fun a => Fin.ext (by match a with | ⟨0, _⟩ => rfl | ⟨1, _⟩ => rfl)
  rw [eL, eR]
  exact congrArg (paddedA x0 (ix2 (i 0) k) * ·) (paddedWide_apply x1 _ _ k (idx_main_v6 i 1) (i 1) rfl)

end Cert.ReferenceIdeal.RefValue

end
-- ==== Proof.lean ====
/-
  A matrix product with bias, padded: the Pallas kernel against its jnp reference, over the extended reals.

  Arguments: a [8000, 120], b [120, 8000], bias [8000], all finite floats. Both programs pad a to [8064, 128] with zeros
  and return, at (r, j) of a [8064, 8000] array,

      (∑ k < 128, a_padded (r, k) · b_padded (k, j)) + bias j.

  * The kernel pads b along its rows only (to [128, 8000]), lays the bias out as one row, and runs a grid of 42 points;
    point t multiplies rows 192·t … 192·t + 191 of the padded a by the whole padded b into a zero accumulator, adds the
    bias row to every row of the block and writes the block back. The 42 row blocks tile the result, so the result
    array is that function of the arguments (Proof/KernelPayload.lean: the body's value at an index;
    Proof/KernelEntryArrays.lean: the arrays the windows read; Proof/KernelResult.lean: from blocks to the array).
  * The reference pads b along its columns too (to [128, 8064]), multiplies, adds the bias into the first 8000 columns
    by a scatter of one update window, and slices those columns out; a scatter read at an index hit by exactly one update
    is the operand's entry combined once with the update's (Proof/LibScatterOneHit.lean), and the columns it reads of
    the wider padding are those of the narrower one (Proof/PaddedProductSpec.lean, Proof/ReferenceIsResult.lean).
  The two sides form the SAME 128 products and the same final sum at every index, so they agree on all extended reals:
  the finiteness of the inputs is never used. A change of float format is the identity at the ideal values and the
  idealization rewrote no operation, so the kernel's idealization is its own text and that conjunct is trivial.
  The three frames are the generated frame runs (the reference's: its generated run with the result dropped).
-/
import proofs.«111424_j60842506715778_2_alg».proof.Defs
import proofs.«111424_j60842506715778_2_alg».proof.Proof.Gen.Kernel
import proofs.«111424_j60842506715778_2_alg».proof.Proof.Gen.Kernel.Skeleton
import proofs.«111424_j60842506715778_2_alg».proof.Proof.Gen.Kernel.Launch
import proofs.«111424_j60842506715778_2_alg».proof.Proof.Gen.Kernel.Points
import proofs.«111424_j60842506715778_2_alg».proof.Proof.Gen.Kernel.Frame
import proofs.«111424_j60842506715778_2_alg».proof.Proof.Gen.KernelIdeal
import proofs.«111424_j60842506715778_2_alg».proof.Proof.Gen.KernelIdeal.Skeleton
import proofs.«111424_j60842506715778_2_alg».proof.Proof.Gen.KernelIdeal.Launch
import proofs.«111424_j60842506715778_2_alg».proof.Proof.Gen.KernelIdeal.Points
import proofs.«111424_j60842506715778_2_alg».proof.Proof.Gen.KernelIdeal.Frame
import proofs.«111424_j60842506715778_2_alg».proof.Proof.Gen.ReferenceIdeal
import proofs.«111424_j60842506715778_2_alg».proof.Proof.Gen.Pre_finite_inputs
import proofs.«111424_j60842506715778_2_alg».proof.Proof.Gen.KernelIdeal.Value
import proofs.«111424_j60842506715778_2_alg».proof.Proof.Gen.ReferenceIdeal.Run
import proofs.«111424_j60842506715778_2_alg».proof.Proof.Gen.ReferenceIdeal.Read
import proofs.«111424_j60842506715778_2_alg».proof.Proof.KernelResult
import proofs.«111424_j60842506715778_2_alg».proof.Proof.ReferenceIsResult
import Idealize.ShloMosaic.Adequacy
import Idealize.ShloMosaic.Init

noncomputable section

namespace Cert.Proof

open Idealize.ShloMosaic Idealize.ShloMosaic.TcCoe Idealize.SL.Sem

/-- The word-level kernel runs to the end and leaves its arguments alone. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the three arguments, the kernel's result array and the reference's both end at the
    padded product plus the bias of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
